-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S13x256 : Shape := ⟨2, ![13, 256]⟩
abbrev S13 : Shape := ⟨1, ![13]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S13x256 : S_.BroadcastsInDim S13x256 (![] : Fin 0 → Fin S13x256.rank)
  reducesTo_S13x256_S_d0_1 : S13x256.ReducesTo [0, 1] S_
  bcast_S_S13 : S_.BroadcastsInDim S13 (![] : Fin 0 → Fin S13.rank)
  reducesTo_S13_S_d0 : S13.ReducesTo [0] S_

variable [Facts]

def fn_part2 {F : FTy → Type} [FloatOps F] (main_arg8 : FVec F S13x256 .f32) (main_arg9 : FVec F S13 .f32) (main_v33 : IVec S_ 1) : IVec S_ 1 :=
  let main_v34 : FVec F S13x256 .f32 := Host.absf main_arg8
  let main_cst_12 : FVec F S_ .f32 := constant S_ .f32 0x7F800000#32
  let main_v35 : FVec F S13x256 .f32 := broadcastInDim S13x256 ![] bcast_S_S13x256 main_cst_12
  let main_v36 : IVec S13x256 1 := cmpf .olt main_v34 main_v35
  let main_c_13 : IVec S_ 1 := constantI S_ 1 1#1
  let main_v37 : IVec S_ 1 := (fun x v => Host.reduce IntOp.andi x v reducesTo_S13x256_S_d0_1 h_S_) main_v36 main_c_13
  let main_v38 : IVec S_ 1 := andi main_v33 main_v37
  let main_v39 : FVec F S13 .f32 := Host.absf main_arg9
  let main_cst_14 : FVec F S_ .f32 := constant S_ .f32 0x7F800000#32
  let main_v40 : FVec F S13 .f32 := broadcastInDim S13 ![] bcast_S_S13 main_cst_14
  let main_v41 : IVec S13 1 := cmpf .olt main_v39 main_v40
  let main_c_15 : IVec S_ 1 := constantI S_ 1 1#1
  let main_v42 : IVec S_ 1 := (fun x v => Host.reduce IntOp.andi x v reducesTo_S13_S_d0 h_S_) main_v41 main_c_15
  let main_v43 : IVec S_ 1 := andi main_v38 main_v42
  main_v43

def fn_part1 {F : FTy → Type} [FloatOps F] (main_arg5 : FVec F S256x256 .f32) (main_arg6 : FVec F S256 .f32) (main_arg7 : FVec F S256x256 .f32) (main_arg8 : FVec F S13x256 .f32) (main_arg9 : FVec F S13 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) (main_arg8 : FVec F S13x256 .f32) (main_arg9 : FVec F S13 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S13x256 : Shape := ⟨2, ![13, 256]⟩
abbrev S13 : Shape := ⟨1, ![13]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩
abbrev S128x256 : Shape := ⟨2, ![128, 256]⟩
abbrev S1 : Shape := ⟨1, ![1]⟩
abbrev S128 : Shape := ⟨1, ![128]⟩
abbrev S1x128 : Shape := ⟨2, ![1, 128]⟩
abbrev S50000x13 : Shape := ⟨2, ![50000, 13]⟩

abbrev nBuf : Space → Nat
  | .hbm => 70
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S13x256, .f32⟩
  | .hbm, ⟨9, _⟩ => ⟨S13, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S_, .f32⟩
  | .hbm, ⟨59, _⟩ => ⟨S128x256, .f32⟩
  | .hbm, ⟨60, _⟩ => ⟨S_, .i32⟩
  | .hbm, ⟨61, _⟩ => ⟨S1, .i32⟩
  | .hbm, ⟨62, _⟩ => ⟨S128x256, .f32⟩
  | .hbm, ⟨63, _⟩ => ⟨S_, .f32⟩
  | .hbm, ⟨64, _⟩ => ⟨S128, .f32⟩
  | .hbm, ⟨65, _⟩ => ⟨S_, .i32⟩
  | .hbm, ⟨66, _⟩ => ⟨S1, .i32⟩
  | .hbm, ⟨67, _⟩ => ⟨S128, .f32⟩
  | .hbm, ⟨68, _⟩ => ⟨S50000x128, .f32⟩
  | .hbm, ⟨69, _⟩ => ⟨S50000x13, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S256, .f32⟩
  | .local _ .vmem, ⟨6, _⟩ => ⟨S256x128, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256, .f32⟩
  | .local _ .vmem, ⟨15, _⟩ => ⟨S256x256, .f32⟩
  | .local _ .vmem, ⟨16, _⟩ => ⟨S128x256, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S128x256 : S_.BroadcastsInDim S128x256 (![] : Fin 0 → Fin S128x256.rank)
  bcast_S_S1 : S_.BroadcastsInDim S1 (![] : Fin 0 → Fin S1.rank)
  bcast_S_S128 : S_.BroadcastsInDim S128 (![] : Fin 0 → Fin S128.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  slices_S50000x128_S50000x13_0_0 : S50000x128.Slices ![0, 0] S50000x13
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S256x128_S2000x256_1_1_0_0_n_n_wf : DotDims.WF S2000x128 S256x128 S2000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S128x256_S1_S13x256_01_n_0_0_wf : ScatterDims.WF S128x256 S1 S13x256 [0, 1] [] [0] 0
  scatter_S128_S1_S13_0_n_0_0_wf : ScatterDims.WF S128 S1 S13 [0] [] [0] 0
  dot_S2000x256_S256x256_S2000x256_1_1_0_0_n_n_wf : DotDims.WF S2000x256 S256x256 S2000x256 [1] [1] [0] [0] [] []
  dot_S2000x256_S128x256_S2000x128_1_1_0_0_n_n_wf : DotDims.WF S2000x256 S128x256 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S128x256_S1_S13x256_01_n_0_0 : ScatterDims S128x256 S1 S13x256 where
  updateWindowDims := [0, 1]
  insertedWindowDims := []
  scatterDimsToOperandDims := [0]
  indexVectorDim := 0
  wf := scatter_S128x256_S1_S13x256_01_n_0_0_wf
def scatter_S128_S1_S13_0_n_0_0 : ScatterDims S128 S1 S13 where
  updateWindowDims := [0]
  insertedWindowDims := []
  scatterDimsToOperandDims := [0]
  indexVectorDim := 0
  wf := scatter_S128_S1_S13_0_n_0_0_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S2000x256_S128x256_S2000x128_1_1_0_0_n_n : DotDims S2000x256 S128x256 S2000x128 where
  lhsContracting := [1]
  rhsContracting := [1]
  lhsNonContracting := [0]
  rhsNonContracting := [0]
  lhsBatch := []
  rhsBatch := []
  wf := dot_S2000x256_S128x256_S2000x128_1_1_0_0_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S13x256 : Shape := ⟨2, ![13, 256]⟩
abbrev S13 : Shape := ⟨1, ![13]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x13 : Shape := ⟨2, ![256, 13]⟩
abbrev S50000x13 : Shape := ⟨2, ![50000, 13]⟩
abbrev S1x13 : Shape := ⟨2, ![1, 13]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S13x256, .f32⟩
  | .hbm, ⟨9, _⟩ => ⟨S13, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S128x256, .f32⟩
  | .hbm, ⟨45, _⟩ => ⟨S50000x256, .f32⟩
  | .hbm, ⟨46, _⟩ => ⟨S50000x256, .f32⟩
  | .hbm, ⟨47, _⟩ => ⟨S_, .f32⟩
  | .hbm, ⟨48, _⟩ => ⟨S50000x256, .f32⟩
  | .hbm, ⟨49, _⟩ => ⟨S50000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x256, .f32⟩
  | .hbm, ⟨74, _⟩ => ⟨S50000x256, .f32⟩
  | .hbm, ⟨75, _⟩ => ⟨S256x256, .f32⟩
  | .hbm, ⟨76, _⟩ => ⟨S50000x256, .f32⟩
  | .hbm, ⟨77, _⟩ => ⟨S1x256, .f32⟩
  | .hbm, ⟨78, _⟩ => ⟨S50000x256, .f32⟩
  | .hbm, ⟨79, _⟩ => ⟨S50000x256, .f32⟩
  | .hbm, ⟨80, _⟩ => ⟨S256x256, .f32⟩
  | .hbm, ⟨81, _⟩ => ⟨S50000x256, .f32⟩
  | .hbm, ⟨82, _⟩ => ⟨S50000x256, .f32⟩
  | .hbm, ⟨83, _⟩ => ⟨S_, .f32⟩
  | .hbm, ⟨84, _⟩ => ⟨S50000x256, .f32⟩
  | .hbm, ⟨85, _⟩ => ⟨S50000x256, .f32⟩
  | .hbm, ⟨86, _⟩ => ⟨S256x13, .f32⟩
  | .hbm, ⟨87, _⟩ => ⟨S50000x13, .f32⟩
  | .hbm, ⟨88, _⟩ => ⟨S1x13, .f32⟩
  | .hbm, ⟨89, _⟩ => ⟨S50000x13, .f32⟩
  | .hbm, ⟨90, _⟩ => ⟨S50000x13, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  transposes_S13x256_S256x13_1_0 : S13x256.Transposes [1, 0] S256x13
  bcast_S13_S1x13_1 : S13.BroadcastsInDim S1x13 (![1] : Fin 1 → Fin S1x13.rank)
  bcast_S1x13_S50000x13_0_1 : S1x13.BroadcastsInDim S50000x13 (![0, 1] : Fin 2 → Fin S50000x13.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x13_S50000x13_1_0_0_1_n_n_wf : DotDims.WF S50000x256 S256x13 S50000x13 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x13_S50000x13_1_0_0_1_n_n : DotDims S50000x256 S256x13 S50000x13 where
  lhsContracting := [1]
  rhsContracting := [0]
  lhsNonContracting := [0]
  rhsNonContracting := [1]
  lhsBatch := []
  rhsBatch := []
  wf := dot_S50000x256_S256x13_S50000x13_1_0_0_1_n_n_wf

class Facts : Prop extends Facts₀ where

variable [Facts]
-- ==== Proof.KernelRun.lean ====
/-
  The idealized kernel's run with its result named. The program is five segments: host operations, the first
  combine kernel over 25 row blocks, host operations, the second combine kernel fused with the linear layer over 25
  row blocks, and the final column slice. Every unscoped buffer ends at the contents the fold of these segments
  leaves (`W5`); here the run is stated with the result buffer read at that fold, beside the unchanged arguments.
-/
import proofs.«153175_j37847251812924_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at what the last host stretch
    leaves in it, and every argument as launched. -/
theorem run : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.RunValue

end
-- ==== Proof.SageSpec.lean ====
/-
  The mathematics both programs compute, index by index over the extended reals.

  One combine layer takes a table of neighbourhood means `M` and the nodes' own features `X` (one row per node)
  and two weight matrices stored output-row by input-column, and returns, at node `i` and output channel `j`,
      max ( Σ_k M[i,k]·Wl[j,k]  +  b[j]  +  Σ_k X[i,k]·Wr[j,k] , 0 ).
  The last layer is the plain affine map  Σ_k H[i,k]·W[j,k] + b[j].
  Row `i` of either result reads row `i` of the node tables only, so a block of rows of the result is the same
  formula over the same block of rows of the tables; and the affine map's column `j` reads row `j` of `W` and
  entry `j` of `b` only, so padding `W` and `b` with further rows and dropping those columns again changes nothing.
-/
import Idealize.ShloMosaic.PureOps.Ideal
import Idealize.ShloMosaic.Lib.ValueIdx

noncomputable section

open scoped BigOperators

namespace Cert.SageSpec

open Idealize.ShloMosaic Idealize.ShloMosaic.ValueIdx

/-- A table of extended reals with `n0` rows and `n1` columns. -/
abbrev Tab (n0 n1 : Nat) := (⟨2, ![n0, n1]⟩ : Shape).Idx → EReal
/-- A vector of `n` extended reals. -/
abbrev Row (n : Nat) := (⟨1, ![n]⟩ : Shape).Idx → EReal

/-- One combine layer: the mean's transform, plus the bias, plus the node's own transform, clamped at zero. -/
def combine {N K H : Nat} (M X : Tab N K) (Wl : Tab H K) (b : Row H) (Wr : Tab H K) : Tab N H := fun i =>
  max ((∑ k : Fin K, M (ix2 (i 0) k) * Wl (ix2 (i 1) k)) + b (ix1 (i 1)) + ∑ k : Fin K, X (ix2 (i 0) k) * Wr (ix2 (i 1) k)) 0

/-- The affine map of the last layer. -/
def affine {N K O : Nat} (Hm : Tab N K) (W : Tab O K) (b : Row O) : Tab N O := fun i =>
  (∑ k : Fin K, Hm (ix2 (i 0) k) * W (ix2 (i 1) k)) + b (ix1 (i 1))

theorem combine_apply {N K H : Nat} (M X : Tab N K) (Wl : Tab H K) (b : Row H) (Wr : Tab H K) (p : Fin N) (q : Fin H) :
    combine M X Wl b Wr (ix2 p q)
      = max ((∑ k : Fin K, M (ix2 p k) * Wl (ix2 q k)) + b (ix1 q) + ∑ k : Fin K, X (ix2 p k) * Wr (ix2 q k)) 0 := rfl

theorem affine_apply {N K O : Nat} (Hm : Tab N K) (W : Tab O K) (b : Row O) (p : Fin N) (q : Fin O) :
    affine Hm W b (ix2 p q) = (∑ k : Fin K, Hm (ix2 p k) * W (ix2 q k)) + b (ix1 q) := rfl

/-- A row of the combine layer reads that row of the two node tables only. -/
theorem combine_row {N N' K H : Nat} (M X : Tab N K) (M' X' : Tab N' K) (Wl : Tab H K) (b : Row H) (Wr : Tab H K)
    (p : Fin N) (p' : Fin N') (q : Fin H) (hM : ∀ k, M' (ix2 p' k) = M (ix2 p k)) (hX : ∀ k, X' (ix2 p' k) = X (ix2 p k)) :
    combine M' X' Wl b Wr (ix2 p' q) = combine M X Wl b Wr (ix2 p q) := by
  rw [combine_apply, combine_apply]
  simp only [hM, hX]

/-- Two combine entries agree when the rows and the weight rows they read agree entry by entry. -/
theorem combine_congr {N N' K H H' : Nat} (M X : Tab N K) (M' X' : Tab N' K) (Wl Wr : Tab H K) (Wl' Wr' : Tab H' K)
    (b : Row H) (b' : Row H') (p : Fin N) (p' : Fin N') (q : Fin H) (q' : Fin H')
    (hM : ∀ k, M' (ix2 p' k) = M (ix2 p k)) (hX : ∀ k, X' (ix2 p' k) = X (ix2 p k))
    (hWl : ∀ k, Wl' (ix2 q' k) = Wl (ix2 q k)) (hb : b' (ix1 q') = b (ix1 q)) (hWr : ∀ k, Wr' (ix2 q' k) = Wr (ix2 q k)) :
    combine M' X' Wl' b' Wr' (ix2 p' q') = combine M X Wl b Wr (ix2 p q) := by
  rw [combine_apply, combine_apply]
  simp only [hM, hX, hWl, hb, hWr]

/-- A row of the affine map reads that row of its table only; a column reads that row of the weights and that entry of the bias. -/
theorem affine_entry {N N' K O O' : Nat} (Hm : Tab N K) (Hm' : Tab N' K) (W : Tab O K) (W' : Tab O' K) (b : Row O) (b' : Row O')
    (p : Fin N) (p' : Fin N') (q : Fin O) (q' : Fin O') (hH : ∀ k, Hm' (ix2 p' k) = Hm (ix2 p k))
    (hW : ∀ k, W' (ix2 q' k) = W (ix2 q k)) (hb : b' (ix1 q') = b (ix1 q)) :
    affine Hm' W' b' (ix2 p' q') = affine Hm W b (ix2 p q) := by
  rw [affine_apply, affine_apply]
  simp only [hH, hW, hb]

end Cert.SageSpec

end
-- ==== Proof.LibMatmulNT.lean ====
/-
  A matrix product against a TRANSPOSED right factor, read at an entry.

  `tpu.matmul` of an [M,K] left factor and an [N,K] right factor, contracting the second axis of both (the product
  `lhs · rhsᵀ`), into the zero accumulator: at the exact instance its entry (p, o) is  Σ_k lhs[p,k] · rhs[o,k].
  Stated for any dimension record over these shapes whose contraction has one axis of extent K and whose operand
  indices have the four evident coordinates; a record of a printed program supplies those by computation.
-/
import Idealize.ShloMosaic.PureOps.Ideal.Laws
import Idealize.ShloMosaic.Lib.ValueIdx

noncomputable section

open scoped BigOperators

namespace Cert.LibMatmulNT

open Idealize.ShloMosaic Idealize.ShloMosaic.ValueIdx

/-- Entry (p, o) of `lhs · rhsᵀ` accumulated from zero is the sum over the shared axis of the products of row `p` of
    the left factor and row `o` of the right factor. -/
theorem matmul_nt_zero_apply {M K N : Nat} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (lhs : FVec Ideal ⟨2, ![M, K]⟩ φ₁) (rhs : FVec Ideal ⟨2, ![N, K]⟩ φ₂) (p : Fin M) (o : Fin N) :
    FloatOps.matmul D prec lhs rhs (constant (F := Ideal) ⟨2, ![M, N]⟩ .f32 0x00000000#32) (ix2 p o)
      = ∑ k : Fin K, lhs (ix2 p k) * rhs (ix2 o k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p o) ((contrEquiv1 D K hr hs).symm k) = ix2 p k := funext fun a => Fin.ext (by
    match a with
    | ⟨0, _⟩ => exact hl0 _ _
    | ⟨1, _⟩ => exact (hl1 _ _).trans hk)
  have er : D.rhsIdx (ix2 p o) ((contrEquiv1 D K hr hs).symm k) = ix2 o k := funext fun a => Fin.ext (by
    match a with
    | ⟨0, _⟩ => exact hr0 _ _
    | ⟨1, _⟩ => exact (hr1 _ _).trans hk)
  rw [el, er]

end Cert.LibMatmulNT

end
-- ==== Proof.Payload.lean ====
/-
  What each kernel body stores, as a formula of the blocks it loads, at the exact instance.

  The first kernel stores  max(mean·Wlᵀ + b + x·Wrᵀ, 0)  of its 2000-row blocks: the combine layer over those rows.
  The second stores  max(mean·Wlᵀ + b + h·Wrᵀ, 0)·Wpadᵀ + bpad : the combine layer followed by the affine map.
  The changes of float format are the identity here, the two shape casts of a block to its own shape are the
  identity, and the bias vector cast to one row and broadcast down the rows reads the vector at the column.
-/
import proofs.«153175_j37847251812924_1_alg».proof.Proof.Gen.KernelIdeal.Skeleton
import proofs.«153175_j37847251812924_1_alg».proof.Proof.SageSpec
import proofs.«153175_j37847251812924_1_alg».proof.Proof.LibMatmulNT
import Idealize.ShloMosaic.Lib.Pipeline.Value
import Idealize.ShloMosaic.PureOps.Ideal.Laws

noncomputable section

open scoped BigOperators

namespace Cert.KernelIdeal.Payload

open Cert.KernelIdeal Cert.KernelIdeal.Gen Cert.SageSpec
open Idealize.ShloMosaic Idealize.ShloMosaic.ValueIdx

/-- A vector of `b` entries cast to one row and broadcast down `a` rows, read at (p, q), is the vector at `q`. -/
theorem bias_row_apply {a b : Nat} (hb : b ≠ 1) (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) := by
  rw [broadcastTo_apply _ h2 (ix2 p q) (ix2 (0 : Fin 1) q) (fun x => by
    match x with
    | ⟨0, _⟩ => show (0 : Nat) = if (1 : Nat) = 1 then 0 else _; rw [if_pos rfl]
    | ⟨1, _⟩ => show q.val = if b = 1 then 0 else q.val; rw [if_neg hb])]
  refine (shapeCast_addUnit_apply ![b] v h1 _).trans ?_
  exact congrArg v (funext fun x => by match x with | ⟨0, _⟩ => rfl)

/-! ## The three products: each contracts the second axis of both factors -/

local notation "D0" => dot_S2000x128_S256x128_S2000x256_1_1_0_0_n_n
local notation "D1" => dot_S2000x256_S256x256_S2000x256_1_1_0_0_n_n
local notation "D2" => dot_S2000x256_S128x256_S2000x128_1_1_0_0_n_n

theorem d0_l0 (j : S2000x256.Idx) (q : (D0).contr.Idx) : ((D0).lhsIdx j q 0).val = (j 0).val := by
  unfold DotDims.lhsIdx
  rw [dif_neg (show ¬(0 : Fin S2000x128.rank) ∈ (D0).lhsBatch by decide), dif_pos (show (0 : Fin S2000x128.rank) ∈ (D0).lhsNonContracting by decide)]
  rfl
theorem d0_l1 (j : S2000x256.Idx) (q : (D0).contr.Idx) : ((D0).lhsIdx j q 1).val = (q ⟨0, by decide⟩).val :=
  (D0).lhsIdx_val_of_single rfl j q
theorem d0_r0 (j : S2000x256.Idx) (q : (D0).contr.Idx) : ((D0).rhsIdx j q 0).val = (j 1).val := by
  unfold DotDims.rhsIdx
  rw [dif_neg (show ¬(0 : Fin S256x128.rank) ∈ (D0).rhsBatch by decide), dif_pos (show (0 : Fin S256x128.rank) ∈ (D0).rhsNonContracting by decide)]
  rfl
theorem d0_r1 (j : S2000x256.Idx) (q : (D0).contr.Idx) : ((D0).rhsIdx j q 1).val = (q ⟨0, by decide⟩).val :=
  (D0).rhsIdx_val_of_single rfl j q

theorem d1_l0 (j : S2000x256.Idx) (q : (D1).contr.Idx) : ((D1).lhsIdx j q 0).val = (j 0).val := by
  unfold DotDims.lhsIdx
  rw [dif_neg (show ¬(0 : Fin S2000x256.rank) ∈ (D1).lhsBatch by decide), dif_pos (show (0 : Fin S2000x256.rank) ∈ (D1).lhsNonContracting by decide)]
  rfl
theorem d1_l1 (j : S2000x256.Idx) (q : (D1).contr.Idx) : ((D1).lhsIdx j q 1).val = (q ⟨0, by decide⟩).val :=
  (D1).lhsIdx_val_of_single rfl j q
theorem d1_r0 (j : S2000x256.Idx) (q : (D1).contr.Idx) : ((D1).rhsIdx j q 0).val = (j 1).val := by
  unfold DotDims.rhsIdx
  rw [dif_neg (show ¬(0 : Fin S256x256.rank) ∈ (D1).rhsBatch by decide), dif_pos (show (0 : Fin S256x256.rank) ∈ (D1).rhsNonContracting by decide)]
  rfl
theorem d1_r1 (j : S2000x256.Idx) (q : (D1).contr.Idx) : ((D1).rhsIdx j q 1).val = (q ⟨0, by decide⟩).val :=
  (D1).rhsIdx_val_of_single rfl j q

theorem d2_l0 (j : S2000x128.Idx) (q : (D2).contr.Idx) : ((D2).lhsIdx j q 0).val = (j 0).val := by
  unfold DotDims.lhsIdx
  rw [dif_neg (show ¬(0 : Fin S2000x256.rank) ∈ (D2).lhsBatch by decide), dif_pos (show (0 : Fin S2000x256.rank) ∈ (D2).lhsNonContracting by decide)]
  rfl
theorem d2_l1 (j : S2000x128.Idx) (q : (D2).contr.Idx) : ((D2).lhsIdx j q 1).val = (q ⟨0, by decide⟩).val :=
  (D2).lhsIdx_val_of_single rfl j q
theorem d2_r0 (j : S2000x128.Idx) (q : (D2).contr.Idx) : ((D2).rhsIdx j q 0).val = (j 1).val := by
  unfold DotDims.rhsIdx
  rw [dif_neg (show ¬(0 : Fin S128x256.rank) ∈ (D2).rhsBatch by decide), dif_pos (show (0 : Fin S128x256.rank) ∈ (D2).rhsNonContracting by decide)]
  rfl
theorem d2_r1 (j : S2000x128.Idx) (q : (D2).contr.Idx) : ((D2).rhsIdx j q 1).val = (q ⟨0, by decide⟩).val :=
  (D2).rhsIdx_val_of_single rfl j q

/-- A 2000-row block of 128-wide rows against a 256×128 weight matrix, transposed. -/
theorem mm0_apply {φ₁ φ₂ : FTy} (l : FVec Ideal S2000x128 φ₁) (r : FVec Ideal S256x128 φ₂) (p : Fin 2000) (q : Fin 256) :
    matmul D0 none l r (constant S2000x256 .f32 0x00000000#32) (ix2 p q) = ∑ k : Fin 128, l (ix2 p k) * r (ix2 q k) :=
  Cert.LibMatmulNT.matmul_nt_zero_apply D0 none rfl rfl d0_l0 d0_l1 d0_r0 d0_r1 l r p q
/-- A 2000-row block of 256-wide rows against a 256×256 weight matrix, transposed. -/
theorem mm1_apply {φ₁ φ₂ : FTy} (l : FVec Ideal S2000x256 φ₁) (r : FVec Ideal S256x256 φ₂) (p : Fin 2000) (q : Fin 256) :
    matmul D1 none l r (constant S2000x256 .f32 0x00000000#32) (ix2 p q) = ∑ k : Fin 256, l (ix2 p k) * r (ix2 q k) :=
  Cert.LibMatmulNT.matmul_nt_zero_apply D1 none rfl rfl d1_l0 d1_l1 d1_r0 d1_r1 l r p q
/-- A 2000-row block of 256-wide rows against the padded 128×256 output weights, transposed. -/
theorem mm2_apply {φ₁ φ₂ : FTy} (l : FVec Ideal S2000x256 φ₁) (r : FVec Ideal S128x256 φ₂) (p : Fin 2000) (q : Fin 128) :
    matmul D2 none l r (constant S2000x128 .f32 0x00000000#32) (ix2 p q) = ∑ k : Fin 256, l (ix2 p k) * r (ix2 q k) :=
  Cert.LibMatmulNT.matmul_nt_zero_apply D2 none rfl rfl d2_l0 d2_l1 d2_r0 d2_r1 l r p q

/-- The first kernel's stored block is the combine layer of its loaded blocks. -/
theorem pay0_apply (v0 v3 : Vec Ideal S2000x128 .f32) (v5 v7 : Vec Ideal S256x128 .f32) (v9 : Vec Ideal S256 .f32)
    (p : Fin 2000) (q : Fin 256) :
    k0_pay1 (F := Ideal) v0 v3 v5 v7 v9 (ix2 p q) = combine v0 v3 v5 v9 v7 (ix2 p q) := by
  unfold k0_pay1
  rw [combine_apply, maximumf_apply, addf_apply, addf_apply, broadcast_apply, shapeCast_self, mm0_apply, mm0_apply,
    bias_row_apply (by decide)]
  simp only [Ideal.ofBits_def, Ideal.ofBits_zero_f32]
  rfl

/-- The second kernel's stored block is the combine layer of its loaded blocks followed by the affine map. -/
theorem pay1_apply (v0 v3 : Vec Ideal S2000x256 .f32) (v6 v8 : Vec Ideal S256x256 .f32) (v10 : Vec Ideal S256 .f32)
    (v20 : Vec Ideal S128x256 .f32) (v23 : Vec Ideal S128 .f32) (p : Fin 2000) (q : Fin 128) :
    k1_pay1 (F := Ideal) v0 v3 v6 v8 v10 v20 v23 (ix2 p q) = affine (combine v0 v3 v6 v10 v8) v20 v23 (ix2 p q) := by
  unfold k1_pay1
  rw [affine_apply, addf_apply, mm2_apply, bias_row_apply (by decide)]
  simp only [shapeCast_self, truncf_apply, maximumf_apply, addf_apply, broadcast_apply, mm1_apply,
    bias_row_apply (by decide : (256 : Nat) ≠ 1), Ideal.ofBits_def, Ideal.ofBits_zero_f32, combine_apply]

end Cert.KernelIdeal.Payload

end
-- ==== Proof.Region0.lean ====
/-
  The array the first kernel leaves, as one function of the arrays it finds.

  The grid has 25 points; point t fetches rows 2000·t … 2000·t + 1999 of the mean table and of the feature table,
  the two weight matrices and the bias whole, and writes back rows 2000·t … 2000·t + 1999 of the result. A block
  of rows of the combine layer is the combine layer of that block of rows, so each write-back is the block of ONE
  whole-array function; the 25 blocks tile the 50000 rows, so the array ends holding that function.
-/
import proofs.«153175_j37847251812924_1_alg».proof.Proof.Gen.KernelIdeal.Frame
import proofs.«153175_j37847251812924_1_alg».proof.Proof.Payload
import Idealize.ShloMosaic.Lib.Pipeline.Value

set_option maxRecDepth 16384

noncomputable section

namespace Cert.KernelIdeal.Region0

open Cert.KernelIdeal Cert.KernelIdeal.Gen Cert.SageSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices over the grid: the two node tables and the result move one block of rows per point, the
    weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The function the result array ends holding: the combine layer of the five arrays the region finds. -/
abbrev G (c : Dev nD) : S50000x256.Idx → EReal :=
  combine (V c main_v24 : S50000x128.Idx → EReal) (V c main_arg0 : S50000x128.Idx → EReal)
    (V c main_arg2 : S256x128.Idx → EReal) (V c main_arg3 : S256.Idx → EReal) (V c main_arg4 : S256x128.Idx → EReal)

/-- Row p of the mean table's block at point t is row 2000·t + p of the table. -/
theorem blk_mean (c : Dev nD) (t : Fin cfg0.N) (p : Fin 2000) (k : Fin 128) (r : Fin 50000) (hr : r.val = 2000 * t.val + p.val) :
    (iblk0 V c 0 t : S2000x128.Idx → EReal) (ix2 p k) = (V c main_v24 : S50000x128.Idx → EReal) (ix2 r k) := by
  obtain ⟨e0, e1, -⟩ := idx_facts t
  unfold iblk0
  rw [View.read_apply]
  show (V c main_v24 : S50000x128.Idx → EReal) _ = _
  refine congrArg (V c main_v24 : S50000x128.Idx → EReal) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row p of the feature table's block at point t is row 2000·t + p of the table. -/
theorem blk_feat (c : Dev nD) (t : Fin cfg0.N) (p : Fin 2000) (k : Fin 128) (r : Fin 50000) (hr : r.val = 2000 * t.val + p.val) :
    (iblk0 V c 1 t : S2000x128.Idx → EReal) (ix2 p k) = (V c main_arg0 : S50000x128.Idx → EReal) (ix2 r k) := by
  obtain ⟨-, -, e0, e1, -⟩ := idx_facts t
  unfold iblk0
  rw [View.read_apply]
  show (V c main_arg0 : S50000x128.Idx → EReal) _ = _
  refine congrArg (V c main_arg0 : S50000x128.Idx → EReal) (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The first weight matrix is fetched whole. -/
theorem blk_wl (c : Dev nD) (t : Fin cfg0.N) (q : Fin 256) (k : Fin 128) :
    (iblk0 V c 2 t : S256x128.Idx → EReal) (ix2 q k) = (V c main_arg2 : S256x128.Idx → EReal) (ix2 q k) := by
  obtain ⟨-, -, -, -, e0, e1, -⟩ := idx_facts t
  unfold iblk0
  rw [View.read_apply]
  show (V c main_arg2 : S256x128.Idx → EReal) _ = _
  refine congrArg (V c main_arg2 : S256x128.Idx → EReal) (funext fun a => Fin.ext ?_)
  match a with
  | ⟨0, _⟩ => show win0_2.index t (0 : Fin 2) * 256 + 1 * q.val = q.val; rw [e0]; omega
  | ⟨1, _⟩ => show win0_2.index t (1 : Fin 2) * 128 + 1 * k.val = k.val; rw [e1]; omega

/-- The bias is fetched whole. -/
theorem blk_b (c : Dev nD) (t : Fin cfg0.N) (q : Fin 256) :
    (iblk0 V c 3 t : S256.Idx → EReal) (ix1 q) = (V c main_arg3 : S256.Idx → EReal) (ix1 q) := by
  obtain ⟨-, -, -, -, -, -, e0, -⟩ := idx_facts t
  unfold iblk0
  rw [View.read_apply]
  show (V c main_arg3 : S256.Idx → EReal) _ = _
  refine congrArg (V c main_arg3 : S256.Idx → EReal) (funext fun a => Fin.ext ?_)
  match a with
  | ⟨0, _⟩ => show win0_3.index t (0 : Fin 1) * 256 + 1 * q.val = q.val; rw [e0]; omega

/-- The second weight matrix is fetched whole. -/
theorem blk_wr (c : Dev nD) (t : Fin cfg0.N) (q : Fin 256) (k : Fin 128) :
    (iblk0 V c 4 t : S256x128.Idx → EReal) (ix2 q k) = (V c main_arg4 : S256x128.Idx → EReal) (ix2 q k) := by
  obtain ⟨-, -, -, -, -, -, -, e0, e1, -⟩ := idx_facts t
  unfold iblk0
  rw [View.read_apply]
  show (V c main_arg4 : S256x128.Idx → EReal) _ = _
  refine congrArg (V c main_arg4 : S256x128.Idx → EReal) (funext fun a => Fin.ext ?_)
  match a with
  | ⟨0, _⟩ => show win0_4.index t (0 : Fin 2) * 256 + 1 * q.val = q.val; rw [e0]; omega
  | ⟨1, _⟩ => show win0_4.index t (1 : Fin 2) * 128 + 1 * k.val = k.val; rw [e1]; omega

/-- What point t writes back is block t of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S256x128) hz2, View.ld_unit_zero (S := S256) hz1]
  funext y
  obtain ⟨p, q, rfl⟩ : ∃ (p : Fin 2000) (q : Fin 256), y = ix2 p q := ⟨y 0, y 1, eq_ix2 y⟩
  obtain ⟨-, -, -, -, -, -, -, -, -, e0, e1⟩ := idx_facts t
  have hN : cfg0.N = 25 := N_0
  have hlt : 2000 * t.val + p.val < 50000 := by have := t.isLt; have := p.isLt; omega
  have hemb : ((cfg0.win 5).blk t).view.emb (ix2 p q) = (ix2 (⟨2000 * t.val + p.val, hlt⟩ : Fin 50000) q : S50000x256.Idx) :=
    funext fun a => Fin.ext (by
      match a with
      | ⟨0, _⟩ => show win0_5.index t (0 : Fin 2) * 2000 + 1 * p.val = 2000 * t.val + p.val; rw [e0]; omega
      | ⟨1, _⟩ => show win0_5.index t (1 : Fin 2) * 256 + 1 * q.val = q.val; rw [e1]; omega)
  show k0_pay1 (F := Ideal) (iblk0 V c 0 t) (iblk0 V c 1 t) (iblk0 V c 2 t) (iblk0 V c 4 t) (iblk0 V c 3 t) (ix2 p q)
      = G V c (((cfg0.win 5).blk t).view.emb (ix2 p q))
  rw [hemb]
  refine (Payload.pay0_apply (iblk0 V c 0 t) (iblk0 V c 1 t) (iblk0 V c 2 t) (iblk0 V c 4 t) (iblk0 V c 3 t) p q).trans ?_
  exact combine_congr _ _ _ _ _ _ _ _ _ _ _ _ _ _
    (fun k => blk_mean V c t p k _ rfl) (fun k => blk_feat V c t p k _ rfl)
    (fun k => blk_wl V c t q k) (blk_b V c t q) (fun k => blk_wr V c t q k)

/-- An index of the result array is in point t's block iff its row is among that block's rows. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v25).slice (win0_5.rect t)).set ↔ _
  rw [View.set_slice_whole, Rect.mem_set_unit]
  exact Iff.rfl

/-- Every row is in the block of the point numbered by the row divided by 2000. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, -, -, -, -, -, e0, e1⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [e1]; omega

/-- The result array after the region is the combine layer of the arrays the region finds. -/
theorem value (c : Dev nD) : (dat0 (F := Ideal) V c).arrAt 5 cfg0.N = G V c :=
  (dat0 V c).arrAt_eq_of_cover 5 (G V c) (fun t _ => flushed_eq V c t) cover

end Cert.KernelIdeal.Region0

end
-- ==== Proof.Region1.lean ====
/-
  The array the second kernel leaves, as one function of the arrays it finds.

  As in the first kernel the grid has 25 points, and point t fetches rows 2000·t … 2000·t + 1999 of the mean table
  and of the hidden table, the weight matrices, the biases and the padded output weights whole, and writes back rows
  2000·t … 2000·t + 1999 of the 128-column result. A row of "combine, then affine" reads that row of the two node
  tables only, so each write-back is the block of ONE whole-array function, and the 25 blocks tile the 50000 rows.
-/
import proofs.«153175_j37847251812924_1_alg».proof.Proof.Gen.KernelIdeal.Frame
import proofs.«153175_j37847251812924_1_alg».proof.Proof.Payload
import Idealize.ShloMosaic.Lib.Pipeline.Value

set_option maxRecDepth 16384

noncomputable section

namespace Cert.KernelIdeal.Region1

open Cert.KernelIdeal Cert.KernelIdeal.Gen Cert.SageSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices over the grid: the two node tables and the result move one block of rows per point, every
    other operand stays at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- The function the result array ends holding: combine, then the affine map, of the seven arrays the region finds. -/
abbrev G (c : Dev nD) : S50000x128.Idx → EReal :=
  affine (combine (V c main_v37 : S50000x256.Idx → EReal) (V c main_v25 : S50000x256.Idx → EReal)
      (V c main_arg5 : S256x256.Idx → EReal) (V c main_arg6 : S256.Idx → EReal) (V c main_arg7 : S256x256.Idx → EReal))
    (V c main_v40 : S128x256.Idx → EReal) (V c main_v43 : S128.Idx → EReal)

/-- Row p of the mean table's block at point t is row 2000·t + p of the table. -/
theorem blk_mean (c : Dev nD) (t : Fin cfg1.N) (p : Fin 2000) (k : Fin 256) (r : Fin 50000) (hr : r.val = 2000 * t.val + p.val) :
    (iblk1 V c 0 t : S2000x256.Idx → EReal) (ix2 p k) = (V c main_v37 : S50000x256.Idx → EReal) (ix2 r k) := by
  obtain ⟨e0, e1, -⟩ := idx_facts t
  unfold iblk1
  rw [View.read_apply]
  show (V c main_v37 : S50000x256.Idx → EReal) _ = _
  refine congrArg (V c main_v37 : S50000x256.Idx → EReal) (funext fun a => Fin.ext ?_)
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Row p of the hidden table's block at point t is row 2000·t + p of the table. -/
theorem blk_hid (c : Dev nD) (t : Fin cfg1.N) (p : Fin 2000) (k : Fin 256) (r : Fin 50000) (hr : r.val = 2000 * t.val + p.val) :
    (iblk1 V c 1 t : S2000x256.Idx → EReal) (ix2 p k) = (V c main_v25 : S50000x256.Idx → EReal) (ix2 r k) := by
  obtain ⟨-, -, e0, e1, -⟩ := idx_facts t
  unfold iblk1
  rw [View.read_apply]
  show (V c main_v25 : S50000x256.Idx → EReal) _ = _
  refine congrArg (V c main_v25 : S50000x256.Idx → EReal) (funext fun a => Fin.ext ?_)
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- The first weight matrix is fetched whole. -/
theorem blk_wl (c : Dev nD) (t : Fin cfg1.N) (q : Fin 256) (k : Fin 256) :
    (iblk1 V c 2 t : S256x256.Idx → EReal) (ix2 q k) = (V c main_arg5 : S256x256.Idx → EReal) (ix2 q k) := by
  obtain ⟨-, -, -, -, e0, e1, -⟩ := idx_facts t
  unfold iblk1
  rw [View.read_apply]
  show (V c main_arg5 : S256x256.Idx → EReal) _ = _
  refine congrArg (V c main_arg5 : S256x256.Idx → EReal) (funext fun a => Fin.ext ?_)
  match a with
  | ⟨0, _⟩ => show win1_2.index t (0 : Fin 2) * 256 + 1 * q.val = q.val; rw [e0]; omega
  | ⟨1, _⟩ => show win1_2.index t (1 : Fin 2) * 256 + 1 * k.val = k.val; rw [e1]; omega

/-- The bias is fetched whole. -/
theorem blk_b (c : Dev nD) (t : Fin cfg1.N) (q : Fin 256) :
    (iblk1 V c 3 t : S256.Idx → EReal) (ix1 q) = (V c main_arg6 : S256.Idx → EReal) (ix1 q) := by
  obtain ⟨-, -, -, -, -, -, e0, -⟩ := idx_facts t
  unfold iblk1
  rw [View.read_apply]
  show (V c main_arg6 : S256.Idx → EReal) _ = _
  refine congrArg (V c main_arg6 : S256.Idx → EReal) (funext fun a => Fin.ext ?_)
  match a with
  | ⟨0, _⟩ => show win1_3.index t (0 : Fin 1) * 256 + 1 * q.val = q.val; rw [e0]; omega

/-- The second weight matrix is fetched whole. -/
theorem blk_wr (c : Dev nD) (t : Fin cfg1.N) (q : Fin 256) (k : Fin 256) :
    (iblk1 V c 4 t : S256x256.Idx → EReal) (ix2 q k) = (V c main_arg7 : S256x256.Idx → EReal) (ix2 q k) := by
  obtain ⟨-, -, -, -, -, -, -, e0, e1, -⟩ := idx_facts t
  unfold iblk1
  rw [View.read_apply]
  show (V c main_arg7 : S256x256.Idx → EReal) _ = _
  refine congrArg (V c main_arg7 : S256x256.Idx → EReal) (funext fun a => Fin.ext ?_)
  match a with
  | ⟨0, _⟩ => show win1_4.index t (0 : Fin 2) * 256 + 1 * q.val = q.val; rw [e0]; omega
  | ⟨1, _⟩ => show win1_4.index t (1 : Fin 2) * 256 + 1 * k.val = k.val; rw [e1]; omega

/-- The padded output weights are fetched whole. -/
theorem blk_wo (c : Dev nD) (t : Fin cfg1.N) (q : Fin 128) (k : Fin 256) :
    (iblk1 V c 5 t : S128x256.Idx → EReal) (ix2 q k) = (V c main_v40 : S128x256.Idx → EReal) (ix2 q k) := by
  obtain ⟨-, -, -, -, -, -, -, -, -, e0, e1, -⟩ := idx_facts t
  unfold iblk1
  rw [View.read_apply]
  show (V c main_v40 : S128x256.Idx → EReal) _ = _
  refine congrArg (V c main_v40 : S128x256.Idx → EReal) (funext fun a => Fin.ext ?_)
  match a with
  | ⟨0, _⟩ => show win1_5.index t (0 : Fin 2) * 128 + 1 * q.val = q.val; rw [e0]; omega
  | ⟨1, _⟩ => show win1_5.index t (1 : Fin 2) * 256 + 1 * k.val = k.val; rw [e1]; omega

/-- The padded output bias is fetched whole. -/
theorem blk_bo (c : Dev nD) (t : Fin cfg1.N) (q : Fin 128) :
    (iblk1 V c 6 t : S128.Idx → EReal) (ix1 q) = (V c main_v43 : S128.Idx → EReal) (ix1 q) := by
  obtain ⟨-, -, -, -, -, -, -, -, -, -, -, e0, -⟩ := idx_facts t
  unfold iblk1
  rw [View.read_apply]
  show (V c main_v43 : S128.Idx → EReal) _ = _
  refine congrArg (V c main_v43 : S128.Idx → EReal) (funext fun a => Fin.ext ?_)
  match a with
  | ⟨0, _⟩ => show win1_6.index t (0 : Fin 1) * 128 + 1 * q.val = q.val; rw [e0]; omega

/-- What point t writes back is block t of `G`. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  unfold out1_7
  rw [View.canon_unit_zero hz2]
  simp only [View.ld_unit_zero (S := S2000x256) hz2, View.ld_unit_zero (S := S256x256) hz2, View.ld_unit_zero (S := S256) hz1,
    View.ld_unit_zero (S := S128x256) hz2, View.ld_unit_zero (S := S128) hz1]
  funext y
  obtain ⟨p, q, rfl⟩ : ∃ (p : Fin 2000) (q : Fin 128), y = ix2 p q := ⟨y 0, y 1, eq_ix2 y⟩
  obtain ⟨-, -, -, -, -, -, -, -, -, -, -, -, e0, e1⟩ := idx_facts t
  have hN : cfg1.N = 25 := N_1
  have hlt : 2000 * t.val + p.val < 50000 := by have := t.isLt; have := p.isLt; omega
  have hemb : ((cfg1.win 7).blk t).view.emb (ix2 p q) = (ix2 (⟨2000 * t.val + p.val, hlt⟩ : Fin 50000) q : S50000x128.Idx) :=
    funext fun a => Fin.ext (by
      match a with
      | ⟨0, _⟩ => show win1_7.index t (0 : Fin 2) * 2000 + 1 * p.val = 2000 * t.val + p.val; rw [e0]; omega
      | ⟨1, _⟩ => show win1_7.index t (1 : Fin 2) * 128 + 1 * q.val = q.val; rw [e1]; omega)
  show k1_pay1 (F := Ideal) (iblk1 V c 0 t) (iblk1 V c 1 t) (iblk1 V c 2 t) (iblk1 V c 4 t) (iblk1 V c 3 t) (iblk1 V c 5 t) (iblk1 V c 6 t) (ix2 p q)
      = G V c (((cfg1.win 7).blk t).view.emb (ix2 p q))
  rw [hemb]
  refine (Payload.pay1_apply (iblk1 V c 0 t) (iblk1 V c 1 t) (iblk1 V c 2 t) (iblk1 V c 4 t) (iblk1 V c 3 t) (iblk1 V c 5 t) (iblk1 V c 6 t) p q).trans ?_
  refine affine_entry _ _ _ _ _ _ _ _ _ _ (fun k => ?_) (fun k => blk_wo V c t q k) (blk_bo V c t q)
  exact combine_congr _ _ _ _ _ _ _ _ _ _ _ _ _ _
    (fun j => blk_mean V c t p j _ rfl) (fun j => blk_hid V c t p j _ rfl)
    (fun j => blk_wl V c t k j) (blk_b V c t k) (fun j => blk_wr V c t k j)

/-- An index of the result array is in point t's block iff its row is among that block's rows. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v44).slice (win1_7.rect t)).set ↔ _
  rw [View.set_slice_whole, Rect.mem_set_unit]
  exact Iff.rfl

/-- Every row is in the block of the point numbered by the row divided by 2000. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, -, -, -, -, -, -, -, -, e0, e1⟩ := idx_facts ⟨(i 0).val / 2000, ht⟩
  refine ⟨⟨(i 0).val / 2000, ht⟩, flush1_7 _, ?_⟩
  rw [mem_blk]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 128 ≤ (i 1).val ∧ (i 1).val < win1_7.index ⟨(i 0).val / 2000, ht⟩ (1 : Fin 2) * 128 + 128
    rw [e1]; omega

/-- The result array after the region is "combine, then affine" of the arrays the region finds. -/
theorem value (c : Dev nD) : (dat1 (F := Ideal) V c).arrAt 7 cfg1.N = G V c :=
  (dat1 V c).arrAt_eq_of_cover 7 (G V c) (fun t _ => flushed_eq V c t) cover

end Cert.KernelIdeal.Region1

end
-- ==== Proof.HostTerms.lean ====
/-
  The idealized kernel's host side as terms of the arguments, and its result.

  Before the first kernel the host computes, from the edge list, the per-node count of incoming edges, the reciprocal
  of that count clamped below at 1, and the sum of the source rows of the features over each node's incoming edges
  times that reciprocal: the neighbourhood mean. Between the two kernels it does the same with the first kernel's
  result in place of the features, and pads the output weights and bias to 128 rows. After the second kernel it
  keeps the first 13 columns. With each kernel's array read as the combine layer (the two region modules), the
  result is one term of the ten arguments.
-/
import proofs.«153175_j37847251812924_1_alg».proof.Proof.Gen.KernelIdeal.Frame
import proofs.«153175_j37847251812924_1_alg».proof.Proof.Region0
import proofs.«153175_j37847251812924_1_alg».proof.Proof.Region1
import Idealize.ShloMosaic.Lib.StableHlo.Run

set_option maxRecDepth 16384

noncomputable section

namespace Cert.KernelIdeal.HostTerms

open Cert.KernelIdeal Cert.SageSpec
open Idealize.ShloMosaic Idealize.ShloMosaic.TcCoe Idealize.SL.Sem Idealize.ShloMosaic.StableHlo

section Terms
open Cert.KernelIdeal.Facts₀

/-! ## The host's terms -/

/-- The source node word of every edge. -/
def srcWord (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000

/-- The destination node word of every edge. -/
def dstWord (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

/-- The destination node of every edge, as a column of index words. -/
def dstIdx (x1 : (⟨S2x800000, .i32⟩ : BufTy).Contents (Elt Ideal)) : (⟨S800000x1, .i32⟩ : BufTy).Contents (Elt Ideal) :=
  broadcastInDim S800000x1 ![0] bcast_S800000_S800000x1_0
    (shapeCast _ (extractStridedSlice S1x800000 ![1, 0] x1 slices_S2x800000_S1x800000_1_0) shapeCasts_S1x800000_S800000)

/-- The source node of every edge, a negative word counted from the end, as a column of index words. -/
def srcIdx (x1 : (⟨S2x800000, .i32⟩ : BufTy).Contents (Elt Ideal)) : (⟨S800000x1, .i32⟩ : BufTy).Contents (Elt Ideal) :=
  broadcastInDim S800000x1 ![0] bcast_S800000_S800000x1_0
    (select
      (cmpi .slt (shapeCast _ (extractStridedSlice S1x800000 ![0, 0] x1 slices_S2x800000_S1x800000_0_0) shapeCasts_S1x800000_S800000)
        (broadcastInDim S800000 ![] bcast_S_S800000 (constantI S_ 32 0#32)))
      (addi (shapeCast _ (extractStridedSlice S1x800000 ![0, 0] x1 slices_S2x800000_S1x800000_0_0) shapeCasts_S1x800000_S800000)
        (broadcastInDim S800000 ![] bcast_S_S800000 (constantI S_ 32 50000#32)))
      (shapeCast _ (extractStridedSlice S1x800000 ![0, 0] x1 slices_S2x800000_S1x800000_0_0) shapeCasts_S1x800000_S800000))

/-- The number of edges into each node: ones added up over the destinations. -/
def cnt (x1 : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32)) (dstIdx x1)
    (broadcastInDim S800000 ![] bcast_S_S800000 (constant (F := Ideal) S_ .f32 0x3F800000#32))

/-- The reciprocal of the count clamped below at 1, as a column. -/
def invCol (x1 : (⟨S2x800000, .i32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant (F := Ideal) S_ .f32 0x3F800000#32))
      (maximumf (F := Ideal) (cnt x1) (broadcastInDim S50000 ![] bcast_S_S50000 (constant (F := Ideal) S_ .f32 0x3F800000#32))))

/-- The sum of the source rows of the features over each node's incoming edges. -/
def agg1 (x0 : (⟨S50000x128, .f32⟩ : BufTy).Contents (Elt Ideal)) (x1 : (⟨S2x800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32)) (dstIdx x1)
    (Host.gather gather_S50000x128_S800000x1_S800000x128_1_0_n_n_0_1_1128 x0 (srcIdx x1))

/-- The first layer's neighbourhood mean: the sum times the reciprocal count. -/
def mean1 (x0 : (⟨S50000x128, .f32⟩ : BufTy).Contents (Elt Ideal)) (x1 : (⟨S2x800000, .i32⟩ : BufTy).Contents (Elt Ideal)) :
    (⟨S50000x128, .f32⟩ : BufTy).Contents (Elt Ideal) :=
  mulf (F := Ideal) (φ := .f32) (agg1 x0 x1) (broadcastInDim S50000x128 ![0, 1] bcast_S50000x1_S50000x128_0_1 (invCol x1))

/-- The sum of the source rows of a hidden table over each node's incoming edges. -/
def agg2 (h : (⟨S50000x256, .f32⟩ : BufTy).Contents (Elt Ideal)) (x1 : (⟨S2x800000, .i32⟩ : BufTy).Contents (Elt Ideal)) :
    (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32)) (dstIdx x1)
    (Host.gather gather_S50000x256_S800000x1_S800000x256_1_0_n_n_0_1_1256 h (srcIdx x1))

/-- The second layer's neighbourhood mean. -/
def mean2 (h : (⟨S50000x256, .f32⟩ : BufTy).Contents (Elt Ideal)) (x1 : (⟨S2x800000, .i32⟩ : BufTy).Contents (Elt Ideal)) :
    (⟨S50000x256, .f32⟩ : BufTy).Contents (Elt Ideal) :=
  mulf (F := Ideal) (φ := .f32) (agg2 h x1) (broadcastInDim S50000x256 ![0, 1] bcast_S50000x1_S50000x256_0_1 (invCol x1))

/-- The output weights written at row 0 into 128 rows of zeros. -/
def wpad (x8 : (⟨S13x256, .f32⟩ : BufTy).Contents (Elt Ideal)) : (⟨S128x256, .f32⟩ : BufTy).Contents (Elt Ideal) :=
  Host.scatter scatter_S128x256_S1_S13x256_01_n_0_0 (fun _ b => b)
    (broadcastInDim S128x256 ![] bcast_S_S128x256 (constant (F := Ideal) S_ .f32 0x00000000#32))
    (broadcastInDim S1 ![] bcast_S_S1 (constantI S_ 32 0#32)) x8

/-- The output bias written at entry 0 into 128 zeros. -/
def bpad (x9 : (⟨S13, .f32⟩ : BufTy).Contents (Elt Ideal)) : (⟨S128, .f32⟩ : BufTy).Contents (Elt Ideal) :=
  Host.scatter scatter_S128_S1_S13_0_n_0_0 (fun _ b => b)
    (broadcastInDim S128 ![] bcast_S_S128 (constant (F := Ideal) S_ .f32 0x00000000#32))
    (broadcastInDim S1 ![] bcast_S_S1 (constantI S_ 32 0#32)) x9

/-- The whole program's result as a term of the ten arguments. -/
def result (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S13x256, .f32⟩ : BufTy).Contents (Elt Ideal)) (x9 : (⟨S13, .f32⟩ : BufTy).Contents (Elt Ideal)) :
    (⟨S50000x13, .f32⟩ : BufTy).Contents (Elt Ideal) :=
  extractStridedSlice S50000x13 ![0, 0]
    (affine (combine (mean2 (combine (mean1 x0 x1) x0 x2 x3 x4) x1) (combine (mean1 x0 x1) x0 x2 x3 x4) x5 x6 x7) (wpad x8) (bpad x9)
      : S50000x128.Idx → EReal)
    slices_S50000x128_S50000x13_0_0

end Terms

/-! ## What the regions find -/

open Cert.KernelIdeal.Gen

variable (m : (ℓ : Loc nD τ sig) → Buf (Elt Ideal) ℓ) (ρ : Dev nD → PrngReg)

theorem V1_v24 (c : Dev nD) : V1 m ρ c main_v24 = mean1 (m ((c : Thread nD τ).loc main_arg0)) (m ((c : Thread nD τ).loc main_arg1)) := by
  show StableHlo.after hostOps0 (W0 m ρ c) (Proc.devRef .tc main_v24) = _
  after_results_simp <;> rfl

theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg2 (c : Dev nD) : V1 m ρ c main_arg2 = m ((c : Thread nD τ).loc main_arg2) := by
  show StableHlo.after hostOps0 (W0 m ρ c) (Proc.devRef .tc main_arg2) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl
theorem V1_arg4 (c : Dev nD) : V1 m ρ c main_arg4 = m ((c : Thread nD τ).loc main_arg4) := by
  show StableHlo.after hostOps0 (W0 m ρ c) (Proc.devRef .tc main_arg4) = _
  after_results_simp <;> rfl

/-- The first kernel's result array: the combine layer of the first mean and the arguments. -/
theorem W2_v25 (c : Dev nD) : W2 m ρ c (Proc.devRef .tc main_v25)
    = combine (mean1 (m ((c : Thread nD τ).loc main_arg0)) (m ((c : Thread nD τ).loc main_arg1)))
        (m ((c : Thread nD τ).loc main_arg0)) (m ((c : Thread nD τ).loc main_arg2)) (m ((c : Thread nD τ).loc main_arg3))
        (m ((c : Thread nD τ).loc main_arg4)) := by
  refine (W2_arr m ρ c 5).trans ?_
  rw [Region0.value (V1 m ρ) c]
  show combine (V1 m ρ c main_v24) (V1 m ρ c main_arg0) (V1 m ρ c main_arg2) (V1 m ρ c main_arg3) (V1 m ρ c main_arg4) = _
  rw [V1_v24, V1_arg0, V1_arg2, V1_arg3, V1_arg4]

/-! ## What the second region finds, and the result -/

theorem W2_v1 (c : Dev nD) : W2 m ρ c (Proc.devRef .tc main_v1) = srcWord (m ((c : Thread nD τ).loc main_arg1)) := by
  rw [W2_of_ne m ρ c main_v1 (by decide)]
  show StableHlo.after hostOps0 (W0 m ρ c) (Proc.devRef .tc main_v1) = _
  after_results_simp <;> rfl

theorem W2_v3 (c : Dev nD) : W2 m ρ c (Proc.devRef .tc main_v3) = dstWord (m ((c : Thread nD τ).loc main_arg1)) := by
  rw [W2_of_ne m ρ c main_v3 (by decide)]
  show StableHlo.after hostOps0 (W0 m ρ c) (Proc.devRef .tc main_v3) = _
  after_results_simp <;> rfl

theorem W2_v12 (c : Dev nD) : W2 m ρ c (Proc.devRef .tc main_v12) = invCol (m ((c : Thread nD τ).loc main_arg1)) := by
  rw [W2_of_ne m ρ c main_v12 (by decide)]
  show StableHlo.after hostOps0 (W0 m ρ c) (Proc.devRef .tc main_v12) = _
  after_results_simp <;> rfl

theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl

theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp <;> rfl

theorem V3_arg5 (c : Dev nD) : V3 m ρ c main_arg5 = m ((c : Thread nD τ).loc main_arg5) := by
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp <;> rfl

theorem V3_arg6 (c : Dev nD) : V3 m ρ c main_arg6 = m ((c : Thread nD τ).loc main_arg6) := by
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp <;> rfl

theorem V3_arg7 (c : Dev nD) : V3 m ρ c main_arg7 = m ((c : Thread nD τ).loc main_arg7) := by
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp <;> rfl

theorem V3_v25 (c : Dev nD) : V3 m ρ c main_v25 = W2 m ρ c (Proc.devRef .tc main_v25) := by
  show StableHlo.after hostOps1 (W2 m ρ c) (Proc.devRef .tc main_v25) = _
  after_results_simp <;> rfl

theorem V3_v37 (c : Dev nD) : V3 m ρ c main_v37 = mean2 (W2 m ρ c (Proc.devRef .tc main_v25)) (m ((c : Thread nD τ).loc main_arg1)) := by
  show StableHlo.after hostOps1 (W2 m ρ c) (Proc.devRef .tc main_v37) = _
  after_results_simp
  rw [W2_v1, W2_v3, W2_v12]
  rfl

theorem V3_v40 (c : Dev nD) : V3 m ρ c main_v40 = wpad (m ((c : Thread nD τ).loc main_arg8)) := by
  show StableHlo.after hostOps1 (W2 m ρ c) (Proc.devRef .tc main_v40) = _
  after_results_simp
  rw [W2_arg8]
  rfl

theorem V3_v43 (c : Dev nD) : V3 m ρ c main_v43 = bpad (m ((c : Thread nD τ).loc main_arg9)) := by
  show StableHlo.after hostOps1 (W2 m ρ c) (Proc.devRef .tc main_v43) = _
  after_results_simp
  rw [W2_arg9]
  rfl

/-- The result buffer after the last host stretch is the result term of the ten arguments as launched. -/
theorem W5_v45 (c : Dev nD) : W5 m ρ c (Proc.devRef .tc main_v45)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  show StableHlo.after hostOps2 (W4 m ρ c) (Proc.devRef .tc main_v45) = _
  after_results
  rw [show W4 m ρ c (Proc.devRef .tc main_v44) = (dat1 (V3 m ρ) c).arrAt 7 cfg1.N from W4_arr m ρ c 7, Region1.value (V3 m ρ) c]
  show extractStridedSlice S50000x13 ![0, 0]
      (affine (combine (V3 m ρ c main_v37) (V3 m ρ c main_v25) (V3 m ρ c main_arg5) (V3 m ρ c main_arg6) (V3 m ρ c main_arg7))
        (V3 m ρ c main_v40) (V3 m ρ c main_v43) : S50000x128.Idx → EReal) _ = _
  rw [V3_v37, V3_v25, V3_arg5, V3_arg6, V3_arg7, V3_v40, V3_v43, W2_v25]
  rfl

end Cert.KernelIdeal.HostTerms

end
-- ==== Proof.RefLayers.lean ====
/-
  The reference read layer by layer at the exact instance.

  The reference forms each layer as  mean @ Wlᵀ + b + x @ Wrᵀ  with the weights transposed on the host and
  `dot_general` contracting the left factor's columns with the transposed weights' rows, the bias broadcast over the
  rows, then `relu`; at the exact instance that is the combine layer entry by entry. The last line,
  h @ W_linᵀ + b_lin, is the affine map.
-/
import proofs.«153175_j37847251812924_1_alg».proof.Proof.Gen.ReferenceIdeal.Read
import proofs.«153175_j37847251812924_1_alg».proof.Proof.SageSpec

noncomputable section

open scoped BigOperators

namespace Cert.RefLayers

open Cert.ReferenceIdeal Cert.ReferenceIdeal.Read Cert.SageSpec
open Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S256x128, .f32⟩ : BufTy).Contents (Elt Ideal)) (x3 : (⟨S256, .f32⟩ : BufTy).Contents (Elt Ideal))
  (x4 : (⟨S256x128, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 : (⟨S13x256, .f32⟩ : BufTy).Contents (Elt Ideal)) (x9 : (⟨S13, .f32⟩ : BufTy).Contents (Elt Ideal))

/-- The first hidden table is the combine layer of the first mean, the features and the first layer's weights. -/
theorem layer1 : val_main_v31 (F := Ideal) x0 x1 x2 x3 x4 = combine (val_main_v22 (F := Ideal) x0 x1) x0 x2 x3 x4 := by
  funext i
  obtain ⟨p, q, rfl⟩ : ∃ (p : Fin 50000) (q : Fin 256), i = ix2 p q := ⟨i 0, i 1, eq_ix2 i⟩
  have el : ∀ k : Fin 128, lidx_main_v24 (ix2 p q) k = ix2 p k := fun k =>
    funext fun a => Fin.ext (by match a with | ⟨0, _⟩ => rfl | ⟨1, _⟩ => rfl)
  have er : ∀ k : Fin 128, idx_main_v23 (ridx_main_v24 (ix2 p q) k) = ix2 q k := fun k =>
    funext fun a => Fin.ext (by match a with | ⟨0, _⟩ => rfl | ⟨1, _⟩ => rfl)
  have el' : ∀ k : Fin 128, lidx_main_v29 (ix2 p q) k = ix2 p k := fun k =>
    funext fun a => Fin.ext (by match a with | ⟨0, _⟩ => rfl | ⟨1, _⟩ => rfl)
  have er' : ∀ k : Fin 128, idx_main_v28 (ridx_main_v29 (ix2 p q) k) = ix2 q k := fun k =>
    funext fun a => Fin.ext (by match a with | ⟨0, _⟩ => rfl | ⟨1, _⟩ => rfl)
  have eb : idx_main_v25 (idx_main_v26 (ix2 p q)) = ix1 q :=
    funext fun a => Fin.ext (by match a with | ⟨0, _⟩ => rfl)
  rw [combine_apply, val_main_v31_apply, val_main_v30_apply, val_main_v27_apply, val_main_v24_apply, val_main_v29_apply,
    val_main_v26_apply, val_main_v25_apply, val_main_call0_v0_apply, val_main_call0_cst_apply]
  simp only [val_main_v23_apply, val_main_v28_apply, el, er, el', er', eb, Ideal.maximumf_def, Ideal.addf_def,
    Ideal.ofBits_def, Ideal.ofBits_zero_f32]

/-- The second hidden table is the combine layer of the second mean, the first hidden table and the second layer's weights. -/
theorem layer2 : val_main_v59 (F := Ideal) x0 x1 x2 x3 x4 x5 x6 x7
    = combine (val_main_v50 (F := Ideal) x0 x1 x2 x3 x4) (val_main_v31 (F := Ideal) x0 x1 x2 x3 x4) x5 x6 x7 := by
  funext i
  obtain ⟨p, q, rfl⟩ : ∃ (p : Fin 50000) (q : Fin 256), i = ix2 p q := ⟨i 0, i 1, eq_ix2 i⟩
  have el : ∀ k : Fin 256, lidx_main_v52 (ix2 p q) k = ix2 p k := fun k =>
    funext fun a => Fin.ext (by match a with | ⟨0, _⟩ => rfl | ⟨1, _⟩ => rfl)
  have er : ∀ k : Fin 256, idx_main_v51 (ridx_main_v52 (ix2 p q) k) = ix2 q k := fun k =>
    funext fun a => Fin.ext (by match a with | ⟨0, _⟩ => rfl | ⟨1, _⟩ => rfl)
  have el' : ∀ k : Fin 256, lidx_main_v57 (ix2 p q) k = ix2 p k := fun k =>
    funext fun a => Fin.ext (by match a with | ⟨0, _⟩ => rfl | ⟨1, _⟩ => rfl)
  have er' : ∀ k : Fin 256, idx_main_v56 (ridx_main_v57 (ix2 p q) k) = ix2 q k := fun k =>
    funext fun a => Fin.ext (by match a with | ⟨0, _⟩ => rfl | ⟨1, _⟩ => rfl)
  have eb : idx_main_v53 (idx_main_v54 (ix2 p q)) = ix1 q :=
    funext fun a => Fin.ext (by match a with | ⟨0, _⟩ => rfl)
  rw [combine_apply, val_main_v59_apply, val_main_v58_apply, val_main_v55_apply, val_main_v52_apply, val_main_v57_apply,
    val_main_v54_apply, val_main_v53_apply, val_main_call1_v0_apply, val_main_call1_cst_apply]
  simp only [val_main_v51_apply, val_main_v56_apply, el, er, el', er', eb, Ideal.maximumf_def, Ideal.addf_def,
    Ideal.ofBits_def, Ideal.ofBits_zero_f32]

/-- The result is the affine map of the second hidden table, the output weights and the output bias. -/
theorem output : val_main_v64 (F := Ideal) x0 x1 x2 x3 x4 x5 x6 x7 x8 x9
    = affine (val_main_v59 (F := Ideal) x0 x1 x2 x3 x4 x5 x6 x7) x8 x9 := by
  funext i
  obtain ⟨p, q, rfl⟩ : ∃ (p : Fin 50000) (q : Fin 13), i = ix2 p q := ⟨i 0, i 1, eq_ix2 i⟩
  have el : ∀ k : Fin 256, lidx_main_v61 (ix2 p q) k = ix2 p k := fun k =>
    funext fun a => Fin.ext (by match a with | ⟨0, _⟩ => rfl | ⟨1, _⟩ => rfl)
  have er : ∀ k : Fin 256, idx_main_v60 (ridx_main_v61 (ix2 p q) k) = ix2 q k := fun k =>
    funext fun a => Fin.ext (by match a with | ⟨0, _⟩ => rfl | ⟨1, _⟩ => rfl)
  have eb : idx_main_v62 (idx_main_v63 (ix2 p q)) = ix1 q :=
    funext fun a => Fin.ext (by match a with | ⟨0, _⟩ => rfl)
  rw [affine_apply, val_main_v64_apply, val_main_v61_apply, val_main_v63_apply, val_main_v62_apply]
  simp only [val_main_v60_apply, el, er, eb, Ideal.addf_def]

end Cert.RefLayers

end
-- ==== Proof.LibScatterSetRead.lean ====
/-
  A scatter whose body returns the update (`x.at[…].set(u)`), read at one element.

  The scatter is a left fold of single-element writes over the updates in row-major order. Reading the fold at ONE
  element `i`: a write aimed elsewhere (or dropped) leaves the element as it was, a write aimed at `i` replaces it. So if
  exactly one update index `j₀` lands on `i`, the result at `i` is that update, whatever the operand held and whatever
  the other updates do; and if none does, it is the operand's element.
-/
import Idealize.ShloMosaic.PureOps.ShapeOps

noncomputable section

namespace Cert.LibScatterSetRead

open Idealize.ShloMosaic

/-- A fold of steps none of which touches element `i` leaves it as it was. -/
theorem foldl_miss {β ι α : Type} (step : (ι → α) → β → (ι → α)) (i : ι) (P : β → Prop)
    (hmiss : ∀ r b, ¬ P b → step r b i = r i) (l : List β) (r0 : ι → α) (h : ∀ b ∈ l, ¬ P b) :
    (l.foldl step r0) i = r0 i := by
  induction l generalizing r0 with
  | nil => rfl
  | cons b l ih =>
    rw [List.foldl_cons, ih _ (fun b' hb' => h b' (List.mem_cons_of_mem _ hb'))]
    exact hmiss r0 b (h b List.mem_cons_self)

/-- A fold of steps, each of which either writes `v` to element `i` (when `P` holds of it) or leaves it, with at least
    one step of the first kind, ends with `v` at `i`. -/
theorem foldl_hit {β ι α : Type} (step : (ι → α) → β → (ι → α)) (i : ι) (v : α) (P : β → Prop)
    (hhit : ∀ r b, P b → step r b i = v) (hmiss : ∀ r b, ¬ P b → step r b i = r i) (l : List β) (r0 : ι → α)
    (h : ∃ b ∈ l, P b) : (l.foldl step r0) i = v := by
  induction l generalizing r0 with
  | nil => obtain ⟨b, hb, -⟩ := h; cases hb
  | cons b l ih =>
    rw [List.foldl_cons]
    by_cases hl : ∃ b' ∈ l, P b'
    · exact ih _ hl
    · have hb : P b := by
        obtain ⟨b', hb', hP⟩ := h
        rcases List.mem_cons.mp hb' with rfl | hin
        · exact hP
        · exact absurd ⟨b', hin, hP⟩ hl
      rw [foldl_miss step i P hmiss l _ (fun b' hb' hP => hl ⟨b', hb', hP⟩)]
      exact hhit r0 b hb

/-- A `.set` scatter read at an element that the update index `j₀`, and no other, lands on: the update at `j₀`. -/
theorem scatter_set_apply {s si u : Shape} {w : Nat} {α : Type} (d : ScatterDims s si u) (x : s.Idx → α) (idx : IVec si w)
    (upd : u.Idx → α) (i : s.Idx) (j0 : u.Idx) (h0 : d.resultIdx? j0 idx = some i)
    (huniq : ∀ j, d.resultIdx? j idx = some i → j = j0) :
    Host.scatter d (fun _ b => b) x idx upd i = upd j0 := by
  unfold Host.scatter
  refine foldl_hit _ i (upd j0) (fun n => d.resultIdx? (u.rowMajor.symm n) idx = some i) ?_ ?_ _ _
    ⟨u.rowMajor j0, List.mem_finRange _, by rw [Equiv.symm_apply_apply]; exact h0⟩
  · intro r n hP
    dsimp only
    rw [hP]
    show (if i = i then upd (u.rowMajor.symm n) else r i) = upd j0
    rw [if_pos rfl, huniq _ hP]
  · intro r n hP
    dsimp only
    cases hres : d.resultIdx? (u.rowMajor.symm n) idx with
    | none => rfl
    | some i' =>
      show (if i = i' then upd (u.rowMajor.symm n) else r i) = r i
      exact if_neg (fun e => hP (by rw [hres, e]))

end Cert.LibScatterSetRead

end
-- ==== Proof.Padding.lean ====
/-
  The padded output weights and bias, read where the kernel's result is kept.

  The kernel pads the 13×256 output weights to 128×256 and the 13 output biases to 128 by writing them at offset 0
  into zeros (a scatter whose body returns the update, at the one start index 0). Update element (j, k) lands on
  element (j, k), and no other update does, so row j < 13 of the padded weights is row j of the weights and entry
  j < 13 of the padded bias is entry j of the bias. (Rows 13 … 127 hold the zeros; the final slice drops their
  columns of the result, so they are never read here.)
-/
import proofs.«153175_j37847251812924_1_alg».proof.KernelIdeal
import proofs.«153175_j37847251812924_1_alg».proof.Proof.Gen.KernelIdeal
import proofs.«153175_j37847251812924_1_alg».proof.Proof.LibScatterSetRead
import Idealize.ShloMosaic.Lib.ValueIdx

noncomputable section

namespace Cert.KernelIdeal.Padding

open Cert.KernelIdeal Cert.KernelIdeal.Gen
open Idealize.ShloMosaic Idealize.ShloMosaic.ValueIdx

local notation "d8" => scatter_S128x256_S1_S13x256_01_n_0_0
local notation "d9" => scatter_S128_S1_S13_0_n_0_0

/-- Where update element `jj` of the weights lands: the same row and column of the padded table. -/
theorem land8 (idx : IVec S1 32) (hidx : ∀ i, idx i = 0#32) (jj : S13x256.Idx) :
    (d8).resultIdx? jj idx = some (ix2 (Fin.castLE (by decide) (jj 0) : Fin 128) (jj 1) : S128x256.Idx) := by
  have hs0 : (d8).start jj idx 0 = 0 := by
    unfold ScatterDims.start
    rw [dif_pos (show (0 : Fin S128x256.rank) ∈ (d8).scatterDimsToOperandDims by decide), hidx]
    rfl
  have hs1 : (d8).start jj idx 1 = 0 := by
    unfold ScatterDims.start
    rw [dif_neg (show ¬(1 : Fin S128x256.rank) ∈ (d8).scatterDimsToOperandDims by decide)]
  have hw0 : (d8).window jj 0 = (jj 0).val := by
    unfold ScatterDims.window
    rw [dif_pos (show (0 : Fin S128x256.rank) ∈ (d8).sKept by decide)]
    rfl
  have hw1 : (d8).window jj 1 = (jj 1).val := by
    unfold ScatterDims.window
    rw [dif_pos (show (1 : Fin S128x256.rank) ∈ (d8).sKept by decide)]
    rfl
  have h13 : (jj 0).val < 13 := (jj 0).isLt
  have h256 : (jj 1).val < 256 := (jj 1).isLt
  have hb : ∀ a, 0 ≤ (d8).start jj idx a + (d8).window jj a ∧ (d8).start jj idx a + (d8).window jj a < S128x256.size a := by
    intro a
    match a with
    | ⟨0, _⟩ =>
      show 0 ≤ (d8).start jj idx 0 + (d8).window jj 0 ∧ (d8).start jj idx 0 + (d8).window jj 0 < ((128 : Nat) : Int)
      rw [hs0, hw0]; omega
    | ⟨1, _⟩ =>
      show 0 ≤ (d8).start jj idx 1 + (d8).window jj 1 ∧ (d8).start jj idx 1 + (d8).window jj 1 < ((256 : Nat) : Int)
      rw [hs1, hw1]; omega
  unfold ScatterDims.resultIdx?
  rw [dif_pos hb]
  refine congrArg some (funext fun a => Fin.ext ?_)
  match a with
  | ⟨0, _⟩ => show ((d8).start jj idx 0 + (d8).window jj 0).toNat = (jj 0).val; rw [hs0, hw0]; omega
  | ⟨1, _⟩ => show ((d8).start jj idx 1 + (d8).window jj 1).toNat = (jj 1).val; rw [hs1, hw1]; omega

/-- Row j < 13 of the padded weights is row j of the weights. -/
theorem wpad_apply (x : S128x256.Idx → EReal) (idx : IVec S1 32) (hidx : ∀ i, idx i = 0#32) (upd : S13x256.Idx → EReal)
    (j : Fin 13) (k : Fin 256) :
    Host.scatter d8 (fun _ b => b) x idx upd (ix2 (Fin.castLE (by decide) j : Fin 128) k) = upd (ix2 j k) := by
  refine Cert.LibScatterSetRead.scatter_set_apply d8 x idx upd _ (ix2 j k) (land8 idx hidx _) (fun jj h => ?_)
  rw [land8 idx hidx jj] at h
  have hf := Option.some.inj h
  have e0 : (jj 0).val = j.val := congrArg (fun f : S128x256.Idx => (f 0).val) hf
  have e1 : (jj 1).val = k.val := congrArg (fun f : S128x256.Idx => (f 1).val) hf
  rw [eq_ix2 jj]
  exact congrArg₂ ix2 (Fin.ext e0) (Fin.ext e1)

/-- Where update element `jj` of the bias lands: the same entry of the padded vector. -/
theorem land9 (idx : IVec S1 32) (hidx : ∀ i, idx i = 0#32) (jj : S13.Idx) :
    (d9).resultIdx? jj idx = some (ix1 (Fin.castLE (by decide) (jj 0) : Fin 128) : S128.Idx) := by
  have hs0 : (d9).start jj idx 0 = 0 := by
    unfold ScatterDims.start
    rw [dif_pos (show (0 : Fin S128.rank) ∈ (d9).scatterDimsToOperandDims by decide), hidx]
    rfl
  have hw0 : (d9).window jj 0 = (jj 0).val := by
    unfold ScatterDims.window
    rw [dif_pos (show (0 : Fin S128.rank) ∈ (d9).sKept by decide)]
    rfl
  have h13 : (jj 0).val < 13 := (jj 0).isLt
  have hb : ∀ a, 0 ≤ (d9).start jj idx a + (d9).window jj a ∧ (d9).start jj idx a + (d9).window jj a < S128.size a := by
    intro a
    match a with
    | ⟨0, _⟩ =>
      show 0 ≤ (d9).start jj idx 0 + (d9).window jj 0 ∧ (d9).start jj idx 0 + (d9).window jj 0 < ((128 : Nat) : Int)
      rw [hs0, hw0]; omega
  unfold ScatterDims.resultIdx?
  rw [dif_pos hb]
  refine congrArg some (funext fun a => Fin.ext ?_)
  match a with
  | ⟨0, _⟩ => show ((d9).start jj idx 0 + (d9).window jj 0).toNat = (jj 0).val; rw [hs0, hw0]; omega

/-- Entry j < 13 of the padded bias is entry j of the bias. -/
theorem bpad_apply (x : S128.Idx → EReal) (idx : IVec S1 32) (hidx : ∀ i, idx i = 0#32) (upd : S13.Idx → EReal) (j : Fin 13) :
    Host.scatter d9 (fun _ b => b) x idx upd (ix1 (Fin.castLE (by decide) j : Fin 128)) = upd (ix1 j) := by
  refine Cert.LibScatterSetRead.scatter_set_apply d9 x idx upd _ (ix1 j) (land9 idx hidx _) (fun jj h => ?_)
  rw [land9 idx hidx jj] at h
  have hf := Option.some.inj h
  have e0 : (jj 0).val = j.val := congrArg (fun f : S128.Idx => (f 0).val) hf
  rw [eq_ix1 jj]
  exact congrArg ix1 (Fin.ext e0)

end Cert.KernelIdeal.Padding

end
-- ==== Proof.LibMeanRecip.lean ====
/-
  Mean by a clamped count, two spellings, on the extended reals.

  With `c` any extended real, `max c 1` is at least 1, so it is never zero; division by a value that is not zero is the
  product with its inverse (the extended reals' inverse, which sends both infinities to 0). Hence multiplying by the
  reciprocal `1 / max c 1` and dividing by `max c 1` are one function of `a` and `c`, at the infinities too: no
  finiteness of the sum `a` or of the count `c` is used.
-/
import Idealize.ShloMosaic.PureOps.Ideal
import Idealize.ShloMosaic.PureOps.Ideal.Laws

noncomputable section

namespace Cert.LibMeanRecip

open Idealize.ShloMosaic

/-- The single-precision word of `1.0` denotes the real number 1. -/
theorem ofBits_one_f32 : Ideal.ofBits .f32 0x3F800000#32 = 1 := by
  simp [Ideal.ofBits, Ideal.ieee, -EReal.coe_mul]; norm_num

/-- A value clamped below at 1 is not zero. -/
theorem max_one_ne_zero (c : EReal) : max c 1 ≠ 0 :=
  (lt_of_lt_of_le zero_lt_one (le_max_right c 1)).ne'

/-- `a · (1 / max c 1) = a / max c 1` for all extended reals `a`, `c`. -/
theorem mul_recip_clamped (a c : EReal) : a * Ideal.div 1 (max c 1) = Ideal.div a (max c 1) := by
  have h := max_one_ne_zero c
  rw [Ideal.div, Ideal.div, if_neg h, if_neg h, one_mul]

end Cert.LibMeanRecip

end
-- ==== Proof.Bridge.lean ====
/-
  The kernel's result term is the reference's.

  The two programs aggregate with the same gather and scatter-add over the same index columns and count the edges
  the same way, so those terms are common. They differ in how the mean is taken: the kernel multiplies the sum by the
  reciprocal of the clamped count, the reference divides the sum by the clamped count — one function on the extended
  reals. With equal means the first hidden tables are equal (the combine layer on both sides), hence the second
  aggregation, the second mean and the second hidden table; and the kernel's padded affine map with its columns 13 …
  127 dropped is the reference's affine map, since column j < 13 reads row j of the weights and entry j of the bias.
-/
import proofs.«153175_j37847251812924_1_alg».proof.Proof.HostTerms
import proofs.«153175_j37847251812924_1_alg».proof.Proof.RefLayers
import proofs.«153175_j37847251812924_1_alg».proof.Proof.Padding
import proofs.«153175_j37847251812924_1_alg».proof.Proof.LibMeanRecip
import Idealize.ShloMosaic.Lib.Pipeline.Value

set_option maxRecDepth 16384

noncomputable section

namespace Cert.Bridge

open Cert.SageSpec Cert.ReferenceIdeal.Read
open Idealize.ShloMosaic Idealize.ShloMosaic.ValueIdx

/-- A sum table times the broadcast column of reciprocal clamped counts is the sum table divided by the broadcast
    column of clamped counts. -/
theorem mean_tables {N D : Nat} (A : (⟨2, ![N, D]⟩ : Shape).Idx → EReal) (C : (⟨1, ![N]⟩ : Shape).Idx → EReal)
    (h0 h0' h0'' : (⟨0, ![]⟩ : Shape).BroadcastsInDim ⟨1, ![N]⟩ (![] : Fin 0 → Fin 1))
    (h1 h1' : (⟨1, ![N]⟩ : Shape).BroadcastsInDim ⟨2, ![N, 1]⟩ (![0] : Fin 1 → Fin 2))
    (h2 h2' : (⟨2, ![N, 1]⟩ : Shape).BroadcastsInDim ⟨2, ![N, D]⟩ (![0, 1] : Fin 2 → Fin 2)) :
    mulf (F := Ideal) (φ := .f32) A (broadcastInDim ⟨2, ![N, D]⟩ ![0, 1] h2 (broadcastInDim ⟨2, ![N, 1]⟩ ![0] h1
        (Host.divf (F := Ideal) (φ := .f32) (broadcastInDim ⟨1, ![N]⟩ ![] h0 (constant (F := Ideal) ⟨0, ![]⟩ .f32 0x3F800000#32))
          (maximumf (F := Ideal) (φ := .f32) C (broadcastInDim ⟨1, ![N]⟩ ![] h0' (constant (F := Ideal) ⟨0, ![]⟩ .f32 0x3F800000#32))))))
      = Host.divf (F := Ideal) (φ := .f32) A (broadcastInDim ⟨2, ![N, D]⟩ ![0, 1] h2' (broadcastInDim ⟨2, ![N, 1]⟩ ![0] h1'
          (maximumf (F := Ideal) (φ := .f32) C (broadcastInDim ⟨1, ![N]⟩ ![] h0'' (constant (F := Ideal) ⟨0, ![]⟩ .f32 0x3F800000#32))))) := by
  funext i
  simp only [mulf, Host.divf, maximumf, broadcastInDim, constant, Ideal.mulf_def, Ideal.hostDivf_def, Ideal.maximumf_def,
    Ideal.ofBits_def, Cert.LibMeanRecip.ofBits_one_f32]
  exact Cert.LibMeanRecip.mul_recip_clamped _ _

variable (x0 : (⟨Cert.ReferenceIdeal.S50000x128, .f32⟩ : BufTy).Contents (Elt Ideal)) (x1 : (⟨Cert.ReferenceIdeal.S2x800000, .i32⟩ : BufTy).Contents (Elt Ideal))
  (x2 : (⟨Cert.ReferenceIdeal.S256x128, .f32⟩ : BufTy).Contents (Elt Ideal)) (x3 : (⟨Cert.ReferenceIdeal.S256, .f32⟩ : BufTy).Contents (Elt Ideal))
  (x4 : (⟨Cert.ReferenceIdeal.S256x128, .f32⟩ : BufTy).Contents (Elt Ideal)) (x5 : (⟨Cert.ReferenceIdeal.S256x256, .f32⟩ : BufTy).Contents (Elt Ideal))
  (x6 : (⟨Cert.ReferenceIdeal.S256, .f32⟩ : BufTy).Contents (Elt Ideal)) (x7 : (⟨Cert.ReferenceIdeal.S256x256, .f32⟩ : BufTy).Contents (Elt Ideal))
  (x8 : (⟨Cert.ReferenceIdeal.S13x256, .f32⟩ : BufTy).Contents (Elt Ideal)) (x9 : (⟨Cert.ReferenceIdeal.S13, .f32⟩ : BufTy).Contents (Elt Ideal))

/-- The first mean. -/
theorem mean1_eq : Cert.KernelIdeal.HostTerms.mean1 x0 x1 = val_main_v22 (F := Ideal) x0 x1 := by
  have hA : Cert.KernelIdeal.HostTerms.agg1 x0 x1 = val_main_v13 (F := Ideal) x0 x1 := rfl
  have hC : Cert.KernelIdeal.HostTerms.cnt x1 = val_main_v17 (F := Ideal) x1 := rfl
  unfold Cert.KernelIdeal.HostTerms.mean1 Cert.KernelIdeal.HostTerms.invCol val_main_v22 val_main_v21 val_main_v20 val_main_v19 val_main_v18 val_main_cst_3
  rw [hA, hC]
  exact mean_tables _ _ _ _ _ _ _ _ _

/-- The second mean, of any hidden table. -/
theorem mean2_eq : Cert.KernelIdeal.HostTerms.mean2 (val_main_v31 (F := Ideal) x0 x1 x2 x3 x4) x1 = val_main_v50 (F := Ideal) x0 x1 x2 x3 x4 := by
  have hA : Cert.KernelIdeal.HostTerms.agg2 (val_main_v31 (F := Ideal) x0 x1 x2 x3 x4) x1 = val_main_v41 (F := Ideal) x0 x1 x2 x3 x4 := rfl
  have hC : Cert.KernelIdeal.HostTerms.cnt x1 = val_main_v45 (F := Ideal) x1 := rfl
  unfold Cert.KernelIdeal.HostTerms.mean2 Cert.KernelIdeal.HostTerms.invCol val_main_v50 val_main_v49 val_main_v48 val_main_v47 val_main_v46 val_main_cst_9
  rw [hA, hC]
  exact mean_tables _ _ _ _ _ _ _ _ _

/-- The two programs' result terms are one function of the ten arguments. -/
theorem result_eq : Cert.KernelIdeal.HostTerms.result x0 x1 x2 x3 x4 x5 x6 x7 x8 x9
    = val_main_v64 (F := Ideal) x0 x1 x2 x3 x4 x5 x6 x7 x8 x9 := by
  unfold Cert.KernelIdeal.HostTerms.result
  rw [mean1_eq, ← Cert.RefLayers.layer1, mean2_eq, ← Cert.RefLayers.layer2, Cert.RefLayers.output]
  funext i
  obtain ⟨p, q, rfl⟩ : ∃ (p : Fin 50000) (q : Fin 13), i = ix2 p q := ⟨i 0, i 1, eq_ix2 i⟩
  rw [extractStridedSlice_apply _ _ _ (ix2 p q) (ix2 p (Fin.castLE (by decide) q : Fin 128)) (fun a => by
    match a with
    | ⟨0, _⟩ => show p.val = 0 + p.val; omega
    | ⟨1, _⟩ => show q.val = 0 + q.val; omega)]
  exact affine_entry _ _ _ _ _ _ _ _ _ _ (fun k => rfl)
    (fun k => Cert.KernelIdeal.Padding.wpad_apply _ _ (fun _ => rfl) x8 q k)
    (Cert.KernelIdeal.Padding.bpad_apply _ _ (fun _ => rfl) x9 q)

end Cert.Bridge

end
-- ==== Proof.lean ====
/-
  Two GraphSAGE layers and a linear layer: the kernel against the reference, at the exact instance.

  Both programs take node features x[50000,128], an edge list, and the weights of two mean-aggregation layers and of
  a final linear layer. A layer sums, for every node, the rows of its input table at the sources of the node's
  incoming edges, divides by the number of those edges clamped below at 1, and returns
      max( mean·Wlᵀ + b + input·Wrᵀ , 0 );
  the linear layer returns  h·W_linᵀ + b_lin  with 13 output columns.

  The kernel does the aggregation on the host and the dense part in two kernels over 25 blocks of 2000 rows, the
  second fused with the linear layer on weights padded to 128 rows, of whose 128 result columns the first 13 are kept.
  It takes the mean as  sum · (1 / max(count, 1)); the reference as  sum / max(count, 1).

  On the extended reals these agree for every sum and every count: `max(count, 1)` is never zero, and division by
  a value that is not zero is the product with its inverse. Everything else is the same sums in the same order of
  operations: a block of rows of a layer is the layer of that block of rows, and column j < 13 of the padded
  linear layer reads row j of the weights and entry j of the bias. So the two results are one function of the ten
  arguments, with no use of the inputs' finiteness.

  The frames of the two kernel programs are the generated frame certificates; the reference's frame is its run with
  the result dropped; the idealization rewrote nothing, so its preservation claim is `True`.
-/
import proofs.«153175_j37847251812924_1_alg».proof.Defs
import proofs.«153175_j37847251812924_1_alg».proof.Proof.Gen.Kernel
import proofs.«153175_j37847251812924_1_alg».proof.Proof.Gen.Kernel.Skeleton
import proofs.«153175_j37847251812924_1_alg».proof.Proof.Gen.Kernel.Launch
import proofs.«153175_j37847251812924_1_alg».proof.Proof.Gen.Kernel.Points
import proofs.«153175_j37847251812924_1_alg».proof.Proof.Gen.Kernel.Frame
import proofs.«153175_j37847251812924_1_alg».proof.Proof.Gen.KernelIdeal
import proofs.«153175_j37847251812924_1_alg».proof.Proof.Gen.KernelIdeal.Skeleton
import proofs.«153175_j37847251812924_1_alg».proof.Proof.Gen.KernelIdeal.Launch
import proofs.«153175_j37847251812924_1_alg».proof.Proof.Gen.KernelIdeal.Points
import proofs.«153175_j37847251812924_1_alg».proof.Proof.Gen.KernelIdeal.Frame
import proofs.«153175_j37847251812924_1_alg».proof.Proof.Gen.ReferenceIdeal
import proofs.«153175_j37847251812924_1_alg».proof.Proof.Gen.ReferenceIdeal.Run
import proofs.«153175_j37847251812924_1_alg».proof.Proof.Gen.ReferenceIdeal.Read
import proofs.«153175_j37847251812924_1_alg».proof.Proof.Gen.Pre_finite_inputs
import proofs.«153175_j37847251812924_1_alg».proof.Proof.KernelRun
import proofs.«153175_j37847251812924_1_alg».proof.Proof.HostTerms
import proofs.«153175_j37847251812924_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the same function of the ten arguments. -/
theorem algebraic : Cert.algebraic_KernelIdeal_ReferenceIdeal := by
  intro m ρ m' ρ' _ hagree
  refine ⟨fun c => Cert.KernelIdeal.HostTerms.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.HostTerms.W5_v45 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v64_eq, e0, e1, e2, e3, e4, e5, e6, e7, e8, e9]
    exact (Cert.Bridge.result_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
